-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x256 : Shape := ⟨2, ![4096, 256]⟩
abbrev S4096 : Shape := ⟨1, ![4096]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8192x4096 .f32) (main_arg1 : FVec F S4096x256 .f32) (main_arg2 : FVec F S4096 .f32) (main_arg3 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8192x4096 : Shape := ⟨2, ![8192, 4096]⟩
abbrev S4096x256 : Shape := ⟨2, ![4096, 256]⟩
abbrev S4096 : Shape := ⟨1, ![4096]⟩
abbrev S1 : Shape := ⟨1, ![1]⟩
abbrev S_ : Shape := ⟨0, ![]⟩
abbrev S4096x384 : Shape := ⟨2, ![4096, 384]⟩
abbrev S8192x1 : Shape := ⟨2, ![8192, 1]⟩
abbrev S512x4096 : Shape := ⟨2, ![512, 4096]⟩
abbrev S512x1 : Shape := ⟨2, ![512, 1]⟩
abbrev S512x384 : Shape := ⟨2, ![512, 384]⟩
abbrev S512x256 : Shape := ⟨2, ![512, 256]⟩
abbrev S512 : Shape := ⟨1, ![512]⟩
abbrev S1x1 : Shape := ⟨2, ![1, 1]⟩

abbrev nBuf : Space → Nat
  | .hbm => 17
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S4096, .f32⟩
  | .hbm, ⟨3, _⟩ => ⟨S1, .f32⟩
  | .hbm, ⟨4, _⟩ => ⟨S_, .f32⟩
  | .hbm, ⟨5, _⟩ => ⟨S4096x384, .f32⟩
  | .hbm, ⟨6, _⟩ => ⟨S_, .i32⟩
  | .hbm, ⟨7, _⟩ => ⟨S1, .i32⟩
  | .hbm, ⟨8, _⟩ => ⟨S4096x384, .f32⟩
  | .hbm, ⟨9, _⟩ => ⟨S_, .i32⟩
  | .hbm, ⟨10, _⟩ => ⟨S1, .i32⟩
  | .hbm, ⟨11, _⟩ => ⟨S4096x384, .f32⟩
  | .hbm, ⟨12, _⟩ => ⟨S4096x384, .bf16⟩
  | .hbm, ⟨13, _⟩ => ⟨S8192x1, .f32⟩
  | .hbm, ⟨14, _⟩ => ⟨S1x1, .f32⟩
  | .hbm, ⟨15, _⟩ => ⟨S8192x1, .f32⟩
  | .hbm, ⟨16, _⟩ => ⟨S8192x1, .f32⟩
  | .local _ .vmem, ⟨0, _⟩ => ⟨S512x4096, .f32⟩
  | .local _ .vmem, ⟨1, _⟩ => ⟨S512x4096, .f32⟩
  | .local _ .vmem, ⟨2, _⟩ => ⟨S4096x384, .bf16⟩
  | .local _ .vmem, ⟨3, _⟩ => ⟨S512x1, .f32⟩
  | .local _ .vmem, ⟨4, _⟩ => ⟨S512x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x384 : S_.BroadcastsInDim S4096x384 (![] : Fin 0 → Fin S4096x384.rank)
  bcast_S_S1 : S_.BroadcastsInDim S1 (![] : Fin 0 → Fin S1.rank)
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  slices_S512x384_o0_0_S512x256 : S512x384.Slices ![0, 0] S512x256
  reduces_S512x256_S512 : S512x256.Reduces [1] S512
  shapeCasts_S512_S512x1 : S512.ShapeCasts S512x1
  slices_S512x384_o0_256_S512x1 : S512x384.Slices ![0, 256] S512x1
  inb_S512x1_S512x1_0_0 : ∀ a, (![0, 0] : Fin 2 → Nat) a + S512x1.size a ≤ S512x1.size a
  h_S512x1 : 0 < S512x1.numel
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S4096x384_S1_S4096x256_01_n_1_0_wf : ScatterDims.WF S4096x384 S1 S4096x256 [0, 1] [] [1] 0
  scatter_S4096x384_S1_S4096_0_1_1_0_wf : ScatterDims.WF S4096x384 S1 S4096 [0] [1] [1] 0
  dot_S512x4096_S4096x384_S512x384_1_0_0_1_n_n_wf : DotDims.WF S512x4096 S4096x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x384.size a ≤ S4096x384.size a
  hwx0_1 : ∀ i : grid0.Coords, EltTy.bits .bf16 = 32 ∨ (Rect.block (s := S4096x384) S4096x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def scatter_S4096x384_S1_S4096x256_01_n_1_0 : ScatterDims S4096x384 S1 S4096x256 where
  updateWindowDims := [0, 1]
  insertedWindowDims := []
  scatterDimsToOperandDims := [1]
  indexVectorDim := 0
  wf := scatter_S4096x384_S1_S4096x256_01_n_1_0_wf
def scatter_S4096x384_S1_S4096_0_1_1_0 : ScatterDims S4096x384 S1 S4096 where
  updateWindowDims := [0]
  insertedWindowDims := [1]
  scatterDimsToOperandDims := [1]
  indexVectorDim := 0
  wf := scatter_S4096x384_S1_S4096_0_1_1_0_wf
def dot_S512x4096_S4096x384_S512x384_1_0_0_1_n_n : DotDims S512x4096 S4096x384 S512x384 where
  lhsContracting := [1]
  rhsContracting := [0]
  lhsNonContracting := [0]
  rhsNonContracting := [1]
  lhsBatch := []
  rhsBatch := []
  wf := dot_S512x4096_S4096x384_S512x384_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x256 : Shape := ⟨2, ![4096, 256]⟩
abbrev S4096 : Shape := ⟨1, ![4096]⟩
abbrev S1 : Shape := ⟨1, ![1]⟩
abbrev S4096x1 : Shape := ⟨2, ![4096, 1]⟩
abbrev S8192x1 : Shape := ⟨2, ![8192, 1]⟩
abbrev S1x1 : Shape := ⟨2, ![1, 1]⟩
abbrev S256x4096 : Shape := ⟨2, ![256, 4096]⟩
abbrev S4096x4096 : Shape := ⟨2, ![4096, 4096]⟩
abbrev S_ : Shape := ⟨0, ![]⟩
abbrev S8192 : Shape := ⟨1, ![8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x256, .f32⟩
  | .hbm, ⟨2, _⟩ => ⟨S4096, .f32⟩
  | .hbm, ⟨3, _⟩ => ⟨S1, .f32⟩
  | .hbm, ⟨4, _⟩ => ⟨S4096x1, .f32⟩
  | .hbm, ⟨5, _⟩ => ⟨S8192x1, .f32⟩
  | .hbm, ⟨6, _⟩ => ⟨S1x1, .f32⟩
  | .hbm, ⟨7, _⟩ => ⟨S8192x1, .f32⟩
  | .hbm, ⟨8, _⟩ => ⟨S8192x1, .f32⟩
  | .hbm, ⟨9, _⟩ => ⟨S256x4096, .f32⟩
  | .hbm, ⟨10, _⟩ => ⟨S4096x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  transposes_S4096x256_S256x4096_1_0 : S4096x256.Transposes [1, 0] S256x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  dot_S8192x4096_S4096x1_S8192x1_1_0_0_1_n_n_wf : DotDims.WF S8192x4096 S4096x1 S8192x1 [1] [0] [0] [1] [] []
  dot_S4096x256_S256x4096_S4096x4096_1_0_0_1_n_n_wf : DotDims.WF S4096x256 S256x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x1_S8192x1_1_0_0_1_n_n : DotDims S8192x4096 S4096x1 S8192x1 where
  lhsContracting := [1]
  rhsContracting := [0]
  lhsNonContracting := [0]
  rhsNonContracting := [1]
  lhsBatch := []
  rhsBatch := []
  wf := dot_S8192x4096_S4096x1_S8192x1_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.FmAlgebra.lean ====
/-
  The factorization-machine layer as two formulas over the extended reals, and the law that joins them.

  For a batch row `r` of `x : [8192, 4096]`, factors `V : [4096, 256]`, linear weights `w : [4096]` and bias `b : [1]`:
  * `squares`: the pairwise interaction as the sum over the 256 factors of the SQUARED projection of the row,
      Σ_k (Σ_n x[r,n]·V[n,k])², plus the linear term Σ_n x[r,n]·w[n], plus the bias;
  * `gram`: the same interaction through the 4096 × 4096 Gram matrix of the factors,
      Σ_j (Σ_n x[r,n]·(Σ_k V[n,k]·V[j,k]))·x[r,j], added to linear term plus bias.
  Over the reals the two interactions are one number: expand both into the triple sum of
  x[r,n]·V[n,k]·x[r,j]·V[j,k] and exchange the order of summation. The expansion distributes a product over a sum,
  which fails at the infinities of the extended reals, so the law is stated for arrays whose every entry is a real.
-/
import Mathlib
import Idealize.ShloMosaic.Lib.ValueIdx
import Idealize.ShloMosaic.PureOps.Ideal

noncomputable section

namespace Cert.Fm

open Idealize.ShloMosaic Idealize.ShloMosaic.ValueIdx

/-- A real finite sum, as an extended real, is the sum of the terms as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The Gram-matrix form of the interaction is the sum of squared projections, over the reals: both are
    Σ_k Σ_n Σ_j x[n]·V[n,k]·(x[j]·V[j,k]). -/
theorem gram_identity {N K : ℕ} (x : Fin N → ℝ) (V : Fin N → Fin K → ℝ) :
    ∑ j, (∑ n, x n * ∑ k, V n k * V j k) * x j = ∑ k, (∑ n, x n * V n k) * (∑ n, x n * V n k) := by
  calc ∑ j, (∑ n, x n * ∑ k, V n k * V j k) * x j
      = ∑ j, ∑ n, ∑ k, x n * V n k * (x j * V j k) := by
        refine Finset.sum_congr rfl fun j _ => ?_
        rw [Finset.sum_mul]
        refine Finset.sum_congr rfl fun n _ => ?_
        rw [Finset.mul_sum, Finset.sum_mul]
        refine Finset.sum_congr rfl fun k _ => ?_
        ring
    _ = ∑ n, ∑ j, ∑ k, x n * V n k * (x j * V j k) := Finset.sum_comm
    _ = ∑ n, ∑ k, ∑ j, x n * V n k * (x j * V j k) := Finset.sum_congr rfl fun n _ => Finset.sum_comm
    _ = ∑ k, ∑ n, ∑ j, x n * V n k * (x j * V j k) := Finset.sum_comm
    _ = ∑ k, (∑ n, x n * V n k) * (∑ n, x n * V n k) := by
        refine Finset.sum_congr rfl fun k _ => ?_
        rw [Finset.sum_mul_sum]

abbrev XS : Shape := ⟨2, ![8192, 4096]⟩
abbrev VS : Shape := ⟨2, ![4096, 256]⟩
abbrev WS : Shape := ⟨1, ![4096]⟩
abbrev BS : Shape := ⟨1, ![1]⟩
abbrev OS : Shape := ⟨2, ![8192, 1]⟩

/-- Row `r` of `x` projected on factor `k`. -/
def proj (x : XS.Idx → EReal) (V : VS.Idx → EReal) (r : Fin 8192) (k : Fin 256) : EReal :=
  ∑ n : Fin 4096, x (ix2 r n) * V (ix2 n k)

/-- The linear term of row `r`. -/
def lin (x : XS.Idx → EReal) (w : WS.Idx → EReal) (r : Fin 8192) : EReal :=
  ∑ n : Fin 4096, x (ix2 r n) * w (ix1 n)

/-- The layer with the interaction as a sum of squared projections. -/
def squares (x : XS.Idx → EReal) (V : VS.Idx → EReal) (w : WS.Idx → EReal) (b : BS.Idx → EReal) : OS.Idx → EReal :=
  fun i => ((∑ k : Fin 256, proj x V (i 0) k * proj x V (i 0) k) + lin x w (i 0)) + b (ix1 0)

/-- The layer with the interaction through the factors' Gram matrix. -/
def gram (x : XS.Idx → EReal) (V : VS.Idx → EReal) (w : WS.Idx → EReal) (b : BS.Idx → EReal) : OS.Idx → EReal :=
  fun i => (lin x w (i 0) + b (ix1 0))
    + ∑ j : Fin 4096, (∑ n : Fin 4096, x (ix2 (i 0) n) * ∑ k : Fin 256, V (ix2 n k) * V (ix2 j k)) * x (ix2 (i 0) j)

/-- On arrays of reals the two forms agree. -/
theorem gram_eq_squares (x : XS.Idx → EReal) (V : VS.Idx → EReal) (w : WS.Idx → EReal) (b : BS.Idx → EReal)
    (hx : ∀ i, ∃ r : ℝ, x i = (r : EReal)) (hV : ∀ i, ∃ r : ℝ, V i = (r : EReal))
    (hw : ∀ i, ∃ r : ℝ, w i = (r : EReal)) (hb : ∀ i, ∃ r : ℝ, b i = (r : EReal)) :
    gram x V w b = squares x V w b := by
  choose x' hx' using hx
  choose V' hV' using hV
  choose w' hw' using hw
  choose b' hb' using hb
  obtain rfl : x = fun i => (x' i : EReal) := funext hx'
  obtain rfl : V = fun i => (V' i : EReal) := funext hV'
  obtain rfl : w = fun i => (w' i : EReal) := funext hw'
  obtain rfl : b = fun i => (b' i : EReal) := funext hb'
  funext i
  unfold gram squares proj lin
  simp only [← EReal.coe_mul, ← coe_sum, ← EReal.coe_add]
  rw [EReal.coe_eq_coe_iff]
  have h := gram_identity (fun n => x' (ix2 (i 0) n)) (fun n k => V' (ix2 n k))
  beta_reduce at h
  linarith [h]

end Cert.Fm
-- ==== Proof.FmFinite.lean ====
/-
  From the precondition to "every entry of every input is a real number".

  The precondition is the conjunction, over the four inputs, of "every |entry| is below +∞". Each conjunct is an
  and-reduction of elementwise comparisons, so it holds exactly when each comparison does; and on the extended
  reals max(a, -a) < +∞ excludes both infinities, leaving a real.
-/
import Mathlib
import Idealize.ShloMosaic.Lib.ReduceAll
import Idealize.ShloMosaic.Lib.ValueIdx
import proofs.«140346_j1099511628175_1_alg».proof.Pre_finite_inputs

noncomputable section

namespace Cert.Fm.Finite

open Idealize.ShloMosaic Idealize.ShloMosaic.ValueIdx Cert.Pre_finite_inputs

/-- The word the precondition compares against denotes +∞. -/
theorem ofBits_inf : Ideal.ofBits .f32 0x7F800000#32 = ⊤ := by
  simp [Ideal.ofBits, Ideal.ieee]

/-- An extended real whose absolute value is below +∞ is a real. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | top => simp [Ideal.cmp] at h
  | coe r => exact ⟨r, rfl⟩

variable [Facts]

/-- Under the precondition every entry of x, V, w and b is a real. -/
theorem reals_of_pre (x : FVec Ideal S8192x4096 .f32) (V : FVec Ideal S4096x256 .f32) (w : FVec Ideal S4096 .f32)
    (b : FVec Ideal S1 .f32) (h : fn (F := Ideal) x V w b = fun _ => 1#1) :
    (∀ i, ∃ r : ℝ, x i = (r : EReal)) ∧ (∀ i, ∃ r : ℝ, V i = (r : EReal))
      ∧ (∀ i, ∃ r : ℝ, w i = (r : EReal)) ∧ (∀ i, ∃ r : ℝ, b i = (r : EReal)) := by
  haveI : Subsingleton S_.Idx := ⟨fun a b => funext fun d => d.elim0⟩
  have h0 := congrFun h ix0
  dsimp only [fn, fn_part1] at h0
  obtain ⟨h123, hb⟩ := IntOp.andi_eq_one.1 h0
  obtain ⟨h12, hw⟩ := IntOp.andi_eq_one.1 h123
  obtain ⟨hx, hV⟩ := IntOp.andi_eq_one.1 h12
  exact ⟨fun i => real_of_abs_lt (x i) (Host.reduce_andi_all _ _ _ _ _ hx i),
    fun i => real_of_abs_lt (V i) (Host.reduce_andi_all _ _ _ _ _ hV i),
    fun i => real_of_abs_lt (w i) (Host.reduce_andi_all _ _ _ _ _ hw i),
    fun i => real_of_abs_lt (b i) (Host.reduce_andi_all _ _ _ _ _ hb i)⟩

end Cert.Fm.Finite
-- ==== Proof.FmReference.lean ====
/-
  The reference's result is the Gram-matrix form of the layer.

  Read one operation at a time, entry (r, 0) of the reference's result is
    (Σ_n x[r,n]·w[n] + b[0]) + (0 + Σ_j (Σ_n x[r,n]·(Σ_k V[n,k]·Vᵀ[k,j]))·x[r,j]),
  with w first laid out as a column, b broadcast over the rows, and the transpose read as Vᵀ[k,j] = V[j,k].
  The proof names each composed index map by its coordinates and then compares the two terms.
-/
import proofs.«140346_j1099511628175_1_alg».proof.Proof.Gen.ReferenceIdeal.Read
import proofs.«140346_j1099511628175_1_alg».proof.Proof.FmAlgebra

noncomputable section

namespace Cert.Fm.Reference

open Cert.ReferenceIdeal Cert.ReferenceIdeal.Read Idealize.ShloMosaic Idealize.ShloMosaic.ValueIdx

/-! The composed index maps, coordinate by coordinate. -/

theorem lin_lhs (r : Fin 8192) (q : Fin 1) (n : Fin 4096) : lidx_main_v1 (ix2 r q) n = ix2 r n :=
  funext fun a => Fin.ext (by match a with | ⟨0, _⟩ => rfl | ⟨1, _⟩ => rfl)
theorem lin_rhs (r : Fin 8192) (q : Fin 1) (n : Fin 4096) : idx_main_v0 (ridx_main_v1 (ix2 r q) n) = ix1 n :=
  funext fun a => Fin.ext (by match a with | ⟨0, _⟩ => rfl)
theorem bias_idx (r : Fin 8192) (q : Fin 1) : idx_main_v2 (idx_main_v3 (ix2 r q)) = ix1 (0 : Fin 1) :=
  funext fun a => Fin.ext (by match a with | ⟨0, _⟩ => rfl)
theorem row_idx (r : Fin 8192) (q : Fin 1) (j : Fin 4096) : idx_main_v9 (idx_main_v10 (ix2 r q)) j = ix2 r j :=
  funext fun a => Fin.ext (by match a with | ⟨0, _⟩ => rfl | ⟨1, _⟩ => rfl)
theorem xg_lhs (r : Fin 8192) (j n : Fin 4096) : lidx_main_v7 (ix2 r j) n = ix2 r n :=
  funext fun a => Fin.ext (by match a with | ⟨0, _⟩ => rfl | ⟨1, _⟩ => rfl)
theorem gram_lhs (r : Fin 8192) (j n : Fin 4096) (k : Fin 256) : lidx_main_v6 (ridx_main_v7 (ix2 r j) n) k = ix2 n k :=
  funext fun a => Fin.ext (by match a with | ⟨0, _⟩ => rfl | ⟨1, _⟩ => rfl)
theorem gram_rhs (r : Fin 8192) (j n : Fin 4096) (k : Fin 256) :
    idx_main_v5 (ridx_main_v6 (ridx_main_v7 (ix2 r j) n) k) = ix2 j k :=
  funext fun a => Fin.ext (by match a with | ⟨0, _⟩ => rfl | ⟨1, _⟩ => rfl)

/-- The reference's result, as a function of the four argument arrays, is the Gram form. -/
theorem reference_eq_gram (x : FVec Ideal S8192x4096 .f32) (V : FVec Ideal S4096x256 .f32) (w : FVec Ideal S4096 .f32)
    (b : FVec Ideal S1 .f32) : val_main_v11 (F := Ideal) x V w b = Cert.Fm.gram x V w b := by
  funext i
  obtain ⟨r, q, rfl⟩ : ∃ (r : Fin 8192) (q : Fin 1), i = ix2 r q := ⟨i 0, i 1, eq_ix2 i⟩
  rw [val_main_v11_apply, val_main_v4_apply, val_main_v1_apply, val_main_v3_apply, val_main_v2_apply,
    val_main_v10_apply, val_main_v9_apply]
  simp only [val_main_v0_apply, val_main_v8_apply, val_main_v7_apply, val_main_v6_apply, val_main_v5_apply,
    val_main_cst_apply, lin_lhs, lin_rhs, bias_idx, row_idx, xg_lhs, gram_lhs, gram_rhs,
    Ideal.addf_def, Ideal.mulf_def, Ideal.ofBits_def, Ideal.ofBits_zero_f32, zero_add]
  rfl

end Cert.Fm.Reference
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibScatterSet.lean ====
/-
  A scatter whose body returns the update ("set"), read at one operand index.

  The scatter is a left fold over the update indices in row-major order; each step overwrites the element at the
  update's result index, when that index lies inside the operand. Read at a fixed operand index `i`:
  * if no update index lands on `i`, the operand's element is still there;
  * if exactly one update index `j` lands on `i`, the element is that update's value.
  Both are statements about the fold alone and hold for any dimension numbers, shapes and index width.
-/
import Mathlib
import Idealize.ShloMosaic.PureOps.ShapeOps

namespace Cert.LibScatterSet

open Idealize.ShloMosaic

variable {α : Type} {s si u : Shape} {w : Nat}

/-- One step of the fold: update index number `n` overwrites the element at its result index, if it has one. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update does not land on `i` leaves the element at `i`. -/
theorem step_miss (d : ScatterDims s si u) (idx : IVec si w) (upd : u.Idx → α) (r : s.Idx → α) (n : Fin u.numel) (i : s.Idx)
    (h : d.resultIdx? (u.rowMajor.symm n) idx ≠ some i) : step d idx upd r n i = r i := by
  unfold step
  cases hr : d.resultIdx? (u.rowMajor.symm n) idx with
  | none => rfl
  | some i₀ =>
    have hne : i ≠ i₀ := fun e => h (by rw [hr, e])
    simp only [if_neg hne]

/-- A step whose update lands on `i` puts the update's value there. -/
theorem step_hit (d : ScatterDims s si u) (idx : IVec si w) (upd : u.Idx → α) (r : s.Idx → α) (n : Fin u.numel) (i : s.Idx)
    (h : d.resultIdx? (u.rowMajor.symm n) idx = some i) : step d idx upd r n i = upd (u.rowMajor.symm n) := by
  unfold step
  rw [h]
  simp only [if_pos]

/-- Steps none of which lands on `i` leave the element at `i`. -/
theorem foldl_miss (d : ScatterDims s si u) (idx : IVec si w) (upd : u.Idx → α) (i : s.Idx) :
    ∀ (l : List (Fin u.numel)) (x : s.Idx → α), (∀ n ∈ l, d.resultIdx? (u.rowMajor.symm n) idx ≠ some i) →
      l.foldl (step d idx upd) x i = x i
  | [], _, _ => rfl
  | n :: l, x, h => by
    rw [List.foldl_cons, foldl_miss d idx upd i l _ (fun n' hn' => h n' (List.mem_cons_of_mem _ hn'))]
    exact step_miss d idx upd x n i (h n List.mem_cons_self)

/-- Among steps without repetition, if exactly one (`n₀`) lands on `i`, the element at `i` ends as its update's value. -/
theorem foldl_hit (d : ScatterDims s si u) (idx : IVec si w) (upd : u.Idx → α) (i : s.Idx) (n₀ : Fin u.numel)
    (h₀ : d.resultIdx? (u.rowMajor.symm n₀) idx = some i) :
    ∀ (l : List (Fin u.numel)) (x : s.Idx → α), l.Nodup → n₀ ∈ l →
      (∀ n ∈ l, d.resultIdx? (u.rowMajor.symm n) idx = some i → n = n₀) →
      l.foldl (step d idx upd) x i = upd (u.rowMajor.symm n₀)
  | [], _, _, hm, _ => nomatch hm
  | n :: l, x, hnd, hm, hu => by
    rw [List.foldl_cons]
    obtain ⟨hnl, hndl⟩ := List.nodup_cons.mp hnd
    by_cases hn : n = n₀
    · subst hn
      rw [foldl_miss d idx upd i l _ (fun n' hn' e => hnl ((hu n' (List.mem_cons_of_mem _ hn') e) ▸ hn'))]
      exact step_hit d idx upd x n i h₀
    · have hm' : n₀ ∈ l := by
        rcases List.mem_cons.mp hm with e | e
        · exact absurd e.symm hn
        · exact e
      exact foldl_hit d idx upd i n₀ h₀ l _ hndl hm' (fun n' hn' => hu n' (List.mem_cons_of_mem _ hn'))

/-- No update index lands on `i`: the scatter's result at `i` is the operand's element. -/
theorem scatter_set_of_miss (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_miss d idx upd i _ x (fun n _ => h _)

/-- Exactly one update index `j` lands on `i`: the scatter's result at `i` is the update's value at `j`. -/
theorem scatter_set_of_unique (d : ScatterDims s si u) (x : s.Idx → α) (idx : IVec si w) (upd : u.Idx → α) (i : s.Idx) (j : u.Idx)
    (hj : d.resultIdx? j idx = some i) (hu : ∀ j', d.resultIdx? j' idx = some i → j' = j) :
    Host.scatter d (fun _ b => b) x idx upd i = upd j := by
  rw [scatter_eq_foldl]
  have h₀ : d.resultIdx? (u.rowMajor.symm (u.rowMajor j)) idx = some i := by rw [Equiv.symm_apply_apply]; exact hj
  rw [foldl_hit d idx upd i (u.rowMajor j) h₀ _ x (List.nodup_finRange _) (List.mem_finRange _)
    (fun n _ e => by rw [← hu _ e, Equiv.apply_symm_apply])]
  rw [Equiv.symm_apply_apply]

end Cert.LibScatterSet
-- ==== Proof.FmPad.lean ====
/-
  The padded factor matrix the kernel multiplies by, read at an entry.

  Before the region the program builds a [4096, 384] matrix: zeros, then the factors V written into columns 0..255
  (a scatter of the whole of V at column offset 0), then the linear weights w written into column 256 (a scatter of w
  at column offset 256), then a change of float format, which is the identity on extended reals. So
    entry (n, k), k < 256, is V[n, k];   entry (n, 256) is w[n].
  (Columns 257..383 stay zero; the kernel's result never reads them.)
  Each scatter is read with the general fact that a "set" scatter leaves, at an index exactly one update lands on,
  that update's value, and at an index no update lands on, the operand's element.
-/
import proofs.«140346_j1099511628175_1_alg».proof.Proof.Gen.KernelIdeal
import proofs.«140346_j1099511628175_1_alg».proof.Proof.LibScatterSet
import Idealize.ShloMosaic.Lib.ValueIdx

noncomputable section

namespace Cert.Fm.Pad

open Cert.KernelIdeal Cert.KernelIdeal.Gen Idealize.ShloMosaic Idealize.ShloMosaic.ValueIdx Cert.LibScatterSet

/-- The dimension numbers of the scatter of V: both axes of V are window axes, the one start index names axis 1. -/
abbrev dV : ScatterDims S4096x384 S1 S4096x256 := scatter_S4096x384_S1_S4096x256_01_n_1_0
/-- The dimension numbers of the scatter of w: w's axis is the window axis on rows, column axis inserted. -/
abbrev dW : ScatterDims S4096x384 S1 S4096 := scatter_S4096x384_S1_S4096_0_1_1_0
/-- The start indices: column 0 for V, column 256 for w. -/
abbrev at0 : IVec S1 32 := broadcastInDim S1 ![] bcast_S_S1 (constantI S_ 32 0#32)
abbrev at256 : IVec S1 32 := broadcastInDim S1 ![] bcast_S_S1 (constantI S_ 32 256#32)

/-! ## Where an update index lands -/

theorem startV0 (j : S4096x256.Idx) : dV.start j at0 0 = 0 := by
  unfold ScatterDims.start; rw [dif_neg (by decide)]
theorem startV1 (j : S4096x256.Idx) : dV.start j at0 1 = 0 := by
  unfold ScatterDims.start; rw [dif_pos (by decide)]; rfl
theorem windowV0 (j : S4096x256.Idx) : dV.window j 0 = (j 0).val := by
  unfold ScatterDims.window; rw [dif_pos (by decide)]; rfl
theorem windowV1 (j : S4096x256.Idx) : dV.window j 1 = (j 1).val := by
  unfold ScatterDims.window; rw [dif_pos (by decide)]; rfl

theorem startW0 (j : S4096.Idx) : dW.start j at256 0 = 0 := by
  unfold ScatterDims.start; rw [dif_neg (by decide)]
theorem startW1 (j : S4096.Idx) : dW.start j at256 1 = 256 := by
  unfold ScatterDims.start; rw [dif_pos (by decide)]; rfl
theorem windowW0 (j : S4096.Idx) : dW.window j 0 = (j 0).val := by
  unfold ScatterDims.window; rw [dif_pos (by decide)]; rfl
theorem windowW1 (j : S4096.Idx) : dW.window j 1 = 0 := by
  unfold ScatterDims.window; rw [dif_neg (by decide)]

/-- A factor column as a column of the padded matrix. -/
abbrev colV (k : Fin 256) : Fin 384 := ⟨k.val, by omega⟩
/-- The column the linear weights go to. -/
abbrev colW : Fin 384 := ⟨256, by omega⟩

/-- Entry (n, k) of V lands on entry (n, k) of the padded matrix. -/
theorem landV (j : S4096x256.Idx) : dV.resultIdx? j at0 = some (ix2 (j 0) (colV (j 1))) := by
  have h0 := idx2_lt0 j
  have h1 := idx2_lt1 j
  have h : ∀ a, 0 ≤ dV.start j at0 a + dV.window j a ∧ dV.start j at0 a + dV.window j a < S4096x384.size a := fun a => by
    match a with
    | ⟨0, _⟩ =>
      show 0 ≤ dV.start j at0 0 + dV.window j 0 ∧ dV.start j at0 0 + dV.window j 0 < ((4096 : Nat) : Int)
      rw [startV0, windowV0]; omega
    | ⟨1, _⟩ =>
      show 0 ≤ dV.start j at0 1 + dV.window j 1 ∧ dV.start j at0 1 + dV.window j 1 < ((384 : Nat) : Int)
      rw [startV1, windowV1]; omega
  unfold ScatterDims.resultIdx?
  rw [dif_pos h]
  refine congrArg some (funext fun a => Fin.ext ?_)
  match a with
  | ⟨0, _⟩ => show (dV.start j at0 0 + dV.window j 0).toNat = (j 0).val; rw [startV0, windowV0]; omega
  | ⟨1, _⟩ => show (dV.start j at0 1 + dV.window j 1).toNat = (j 1).val; rw [startV1, windowV1]; omega

/-- Entry n of w lands on entry (n, 256) of the padded matrix. -/
theorem landW (j : S4096.Idx) : dW.resultIdx? j at256 = some (ix2 (j 0) colW) := by
  have h0 : (j 0).val < 4096 := (j 0).isLt
  have h : ∀ a, 0 ≤ dW.start j at256 a + dW.window j a ∧ dW.start j at256 a + dW.window j a < S4096x384.size a := fun a => by
    match a with
    | ⟨0, _⟩ =>
      show 0 ≤ dW.start j at256 0 + dW.window j 0 ∧ dW.start j at256 0 + dW.window j 0 < ((4096 : Nat) : Int)
      rw [startW0, windowW0]; omega
    | ⟨1, _⟩ =>
      show 0 ≤ dW.start j at256 1 + dW.window j 1 ∧ dW.start j at256 1 + dW.window j 1 < ((384 : Nat) : Int)
      rw [startW1, windowW1]; omega
  unfold ScatterDims.resultIdx?
  rw [dif_pos h]
  refine congrArg some (funext fun a => Fin.ext ?_)
  match a with
  | ⟨0, _⟩ => show (dW.start j at256 0 + dW.window j 0).toNat = (j 0).val; rw [startW0, windowW0]; omega
  | ⟨1, _⟩ => show (dW.start j at256 1 + dW.window j 1).toNat = 256; rw [startW1, windowW1]; omega

/-! ## The padded matrix -/

/-- The zero matrix the scatters start from. -/
def zeros : FVec Ideal S4096x384 .f32 := broadcastInDim S4096x384 ![] bcast_S_S4096x384 (constant S_ .f32 0x00000000#32)
/-- With the factors written in. -/
def withV (Vv : FVec Ideal S4096x256 .f32) : FVec Ideal S4096x384 .f32 := Host.scatter dV (fun _ b => b) zeros at0 Vv
/-- With the linear weights written in too. -/
def withW (Vv : FVec Ideal S4096x256 .f32) (wv : FVec Ideal S4096 .f32) : FVec Ideal S4096x384 .f32 :=
  Host.scatter dW (fun _ b => b) (withV Vv) at256 wv
/-- The matrix the kernel's second window stages. -/
def vpad (Vv : FVec Ideal S4096x256 .f32) (wv : FVec Ideal S4096 .f32) : FVec Ideal S4096x384 .bf16 :=
  truncf .bf16 (withW Vv wv) bitsLt_bf16_f32

theorem withV_apply (Vv : FVec Ideal S4096x256 .f32) (n : Fin 4096) (k : Fin 256) : withV Vv (ix2 n (colV k)) = Vv (ix2 n k) := by
  unfold withV
  refine scatter_set_of_unique dV zeros at0 Vv (ix2 n (colV k)) (ix2 n k) (landV (ix2 n k)) fun j' hj' => ?_
  rw [landV j'] at hj'
  have e := Option.some.inj hj'
  have e0 : j' 0 = n := congrFun e 0
  have e1 : colV (j' 1) = colV k := congrFun e 1
  have e1' : j' 1 = k := Fin.ext (by have := congrArg Fin.val e1; exact this)
  rw [eq_ix2 j', e0, e1']
  rfl

theorem withW_factor (Vv : FVec Ideal S4096x256 .f32) (wv : FVec Ideal S4096 .f32) (n : Fin 4096) (k : Fin 256) :
    withW Vv wv (ix2 n (colV k)) = Vv (ix2 n k) := by
  unfold withW
  rw [scatter_set_of_miss dW (withV Vv) at256 wv (ix2 n (colV k)) fun j hj => ?_]
  · exact withV_apply Vv n k
  · rw [landW j] at hj
    have e1 : colW = colV k := congrFun (Option.some.inj hj) 1
    have := congrArg Fin.val e1
    have hk := k.isLt
    simp only [colW, colV] at this
    omega

theorem withW_linear (Vv : FVec Ideal S4096x256 .f32) (wv : FVec Ideal S4096 .f32) (n : Fin 4096) :
    withW Vv wv (ix2 n colW) = wv (ix1 n) := by
  unfold withW
  refine scatter_set_of_unique dW (withV Vv) at256 wv (ix2 n colW) (ix1 n) (landW (ix1 n)) fun j' hj' => ?_
  rw [landW j'] at hj'
  have e0 : j' 0 = n := congrFun (Option.some.inj hj') 0
  rw [eq_ix1 j', e0]
  rfl

/-- A factor column of the padded matrix is that column of V. -/
theorem vpad_factor (Vv : FVec Ideal S4096x256 .f32) (wv : FVec Ideal S4096 .f32) (n : Fin 4096) (k : Fin 256) :
    vpad Vv wv (ix2 n (colV k)) = Vv (ix2 n k) := withW_factor Vv wv n k

/-- Column 256 of the padded matrix is w. -/
theorem vpad_linear (Vv : FVec Ideal S4096x256 .f32) (wv : FVec Ideal S4096 .f32) (n : Fin 4096) :
    vpad Vv wv (ix2 n colW) = wv (ix1 n) := withW_linear Vv wv n

end Cert.Fm.Pad
-- ==== Proof.FmPayload.lean ====
/-
  What the kernel's body stores, read at an entry.

  For a block x0 : [512, 4096] of batch rows and the padded matrix x1 : [4096, 384], the body forms the product
  xv = x0 · x1 : [512, 384] into a zero accumulator, sums the squares of columns 0..255 of xv along each row,
  and adds column 256 of xv. At entry (p, 0):
    Σ_k (Σ_n x0[p,n]·x1[n,k])² + Σ_n x0[p,n]·x1[n,256].
  The changes of float format and the trivial shape cast are identities; the row sum is kept as a column [512, 1].
-/
import proofs.«140346_j1099511628175_1_alg».proof.Proof.Gen.KernelIdeal.Skeleton
import proofs.«140346_j1099511628175_1_alg».proof.Proof.LibDot
import proofs.«140346_j1099511628175_1_alg».proof.Proof.FmPad
import Idealize.ShloMosaic.Lib.ValueIdx
import Idealize.ShloMosaic.Lib.ValueLayout
import Idealize.ShloMosaic.Lib.Pipeline.Value
import Idealize.ShloMosaic.PureOps.Ideal.Laws

noncomputable section

namespace Cert.Fm.Payload

open Cert.KernelIdeal Cert.KernelIdeal.Gen Idealize.ShloMosaic Idealize.ShloMosaic.ValueIdx
open Cert.Fm.Pad (colV colW)

/-- An [a] vector cast to a column [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The body's product contracts axis 1 of the row block with axis 0 of the padded matrix. -/
theorem plain_dot : Cert.LibDot.Plain dot_S512x4096_S4096x384_S512x384_1_0_0_1_n_n where
  hrank := rfl
  hs := rfl
  hl0 := fun j k => by
    unfold DotDims.lhsIdx
    rw [dif_neg (show ¬(0 : Fin S512x4096.rank) ∈ dot_S512x4096_S4096x384_S512x384_1_0_0_1_n_n.lhsBatch by decide),
      dif_pos (show (0 : Fin S512x4096.rank) ∈ dot_S512x4096_S4096x384_S512x384_1_0_0_1_n_n.lhsNonContracting by decide)]
    rfl
  hl1 := fun j k => dot_S512x4096_S4096x384_S512x384_1_0_0_1_n_n.lhsIdx_val_of_single rfl j k
  hr0 := fun j k => dot_S512x4096_S4096x384_S512x384_1_0_0_1_n_n.rhsIdx_val_of_single rfl j k
  hr1 := fun j k => by
    unfold DotDims.rhsIdx
    rw [dif_neg (show ¬(1 : Fin S4096x384.rank) ∈ dot_S512x4096_S4096x384_S512x384_1_0_0_1_n_n.rhsBatch by decide),
      dif_pos (show (1 : Fin S4096x384.rank) ∈ dot_S512x4096_S4096x384_S512x384_1_0_0_1_n_n.rhsNonContracting by decide)]
    rfl

/-- The row block times the padded matrix. -/
def xv (x0 : FVec Ideal S512x4096 .f32) (x1 : FVec Ideal S4096x384 .bf16) : FVec Ideal S512x384 .f32 :=
  matmul dot_S512x4096_S4096x384_S512x384_1_0_0_1_n_n none (truncf .bf16 x0 bitsLt_bf16_f32)
    (shapeCast S4096x384 x1 shapeCasts_S4096x384_S4096x384) (constant S512x384 .f32 0x00000000#32)

/-- Entry (p, c) of the product is the sum over the 4096 features. -/
theorem xv_apply (x0 : FVec Ideal S512x4096 .f32) (x1 : FVec Ideal S4096x384 .bf16) (p : Fin 512) (c : Fin 384) :
    xv x0 x1 (ix2 p c) = ∑ n : Fin 4096, x0 (ix2 p n) * x1 (ix2 n c) := by
  unfold xv
  rw [shapeCast_self]
  exact Cert.LibDot.matmul_ix2 plain_dot none _ _ p c

/-- The body's stored value over the product. -/
theorem pay_eq (x0 : FVec Ideal S512x4096 .f32) (x1 : FVec Ideal S4096x384 .bf16) :
    k0_pay1 (F := Ideal) x0 x1 =
      addf (shapeCast S512x1 (multiReduction (F := Ideal) .add [1] S512
          (mulf (extractStridedSlice S512x256 ![0, 0] (xv x0 x1) slices_S512x384_o0_0_S512x256)
                (extractStridedSlice S512x256 ![0, 0] (xv x0 x1) slices_S512x384_o0_0_S512x256))
          0x00000000#32 reduces_S512x256_S512 (.inl rfl) rfl) shapeCasts_S512_S512x1)
        (extractStridedSlice S512x1 ![0, 256] (xv x0 x1) slices_S512x384_o0_256_S512x1) := rfl

/-- The row sum of the squared factor columns of a [512, 384] array, at row p. -/
theorem sumsq_apply (y : FVec Ideal S512x384 .f32) (p : Fin 512) :
    multiReduction (F := Ideal) .add [1] S512
        (mulf (extractStridedSlice S512x256 ![0, 0] y slices_S512x384_o0_0_S512x256)
              (extractStridedSlice S512x256 ![0, 0] y slices_S512x384_o0_0_S512x256))
        0x00000000#32 reduces_S512x256_S512 (.inl rfl) rfl (ix1 p)
      = ∑ k : Fin 256, y (ix2 p (colV k)) * y (ix2 p (colV k)) := by
  refine (Ideal.multiReduction_add_single _ 0x00000000#32 reduces_S512x256_S512 (.inl rfl) rfl (ix1 p)).trans ?_
  show ∑ k : Fin 256, mulf (extractStridedSlice S512x256 ![0, 0] y slices_S512x384_o0_0_S512x256)
      (extractStridedSlice S512x256 ![0, 0] y slices_S512x384_o0_0_S512x256) (reduces_S512x256_S512.lift (ix1 p) k) = _
  refine Finset.sum_congr rfl fun k _ => ?_
  have hl : reduces_S512x256_S512.lift (ix1 p) k = ix2 p k :=
    funext fun a => Fin.ext (by match a with | ⟨0, _⟩ => rfl | ⟨1, _⟩ => rfl)
  have hs := slice2_axis1_apply 0 y slices_S512x384_o0_0_S512x256 p k (colV k) (Nat.zero_add _).symm
  rw [hl]
  exact congrArg₂ (· * ·) hs hs

/-- The body's stored value at entry (p, q). -/
theorem pay_apply (x0 : FVec Ideal S512x4096 .f32) (x1 : FVec Ideal S4096x384 .bf16) (p : Fin 512) (q : Fin 1) :
    k0_pay1 (F := Ideal) x0 x1 (ix2 p q)
      = (∑ k : Fin 256, (∑ n : Fin 4096, x0 (ix2 p n) * x1 (ix2 n (colV k))) * (∑ n : Fin 4096, x0 (ix2 p n) * x1 (ix2 n (colV k))))
        + ∑ n : Fin 4096, x0 (ix2 p n) * x1 (ix2 n colW) := by
  have hq : q.val = 0 := by omega
  rw [pay_eq, addf_apply, shapeCast_a_a1_apply, sumsq_apply,
    slice2_axis1_apply 256 (xv x0 x1) slices_S512x384_o0_256_S512x1 p q colW (by rw [hq])]
  simp only [xv_apply]

end Cert.Fm.Payload
-- ==== Proof.FmBlocks.lean ====
/-
  From what each grid point writes back to the whole output array of the region.

  Grid point t (of 16) handles batch rows 512·t .. 512·t + 511: its first window's block is those rows of x, its
  second window is the whole padded matrix at every point, and it writes back rows 512·t .. 512·t + 511 of the
  [8192, 1] output. So what point t writes back is the block of ONE function of the arrays the region finds,
    row r ↦ Σ_k (Σ_n x[r,n]·P[n,k])² + Σ_n x[r,n]·P[n,256]      (P the padded matrix),
  and since the sixteen row blocks tile the output, the output array after the region is that function.
-/
import proofs.«140346_j1099511628175_1_alg».proof.Proof.Gen.KernelIdeal.Frame
import proofs.«140346_j1099511628175_1_alg».proof.Proof.FmPayload
import Idealize.ShloMosaic.Lib.Pipeline.Value

set_option maxRecDepth 16384

noncomputable section

namespace Cert.Fm.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Fm.Pad (colV colW)

/-- Row r of the region's result, from the rows array and the padded matrix. -/
def rowValue (xa : S8192x4096.Idx → EReal) (vp : S4096x384.Idx → EReal) (r : Fin 8192) : EReal :=
  (∑ k : Fin 256, (∑ n : Fin 4096, xa (ix2 r n) * vp (ix2 n (colV k))) * (∑ n : Fin 4096, xa (ix2 r n) * vp (ix2 n (colV k))))
    + ∑ n : Fin 4096, xa (ix2 r n) * vp (ix2 n colW)

/-- The region's result as one function of the two arrays it reads. -/
def regionValue (xa : S8192x4096.Idx → EReal) (vp : S4096x384.Idx → EReal) : S8192x1.Idx → EReal :=
  fun i => rowValue xa vp (i 0)

/-- The body's stored value at an entry of its block is the row value, once the row block's row is row r of the rows
    array and the matrix block is the padded matrix. -/
theorem block_value (x0 : FVec Ideal S512x4096 .f32) (x1 : FVec Ideal S4096x384 .bf16)
    (xa : S8192x4096.Idx → EReal) (vp : S4096x384.Idx → EReal) (y : S512x1.Idx) (r : Fin 8192)
    (h0 : ∀ n : Fin 4096, x0 (ix2 (y 0) n) = xa (ix2 r n)) (h1 : ∀ (n : Fin 4096) (c : Fin 384), x1 (ix2 n c) = vp (ix2 n c)) :
    k0_pay1 (F := Ideal) x0 x1 y = rowValue xa vp r := by
  obtain ⟨p, q, rfl⟩ : ∃ (p : Fin 512) (q : Fin 1), y = ix2 p q := ⟨y 0, y 1, eq_ix2 y⟩
  have h0' : ∀ n : Fin 4096, x0 (ix2 p n) = xa (ix2 r n) := h0
  rw [Cert.Fm.Payload.pay_apply]
  unfold rowValue
  simp only [h0', h1]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the rows window moves with the output window along the rows and sits at
    column block 0; the matrix window never moves; the output window has one column block and sixteen row blocks. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block of the output is some point's. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- What point t writes back is block t of the region's value of the arrays as the region finds them. -/
theorem flushed_eq (c : Dev nD) (t : Fin cfg0.N) :
    (dats m 0 c).flushed 2 t
      = ((cfg0.win 2).blk t).view.read (Elt Ideal) (regionValue (V m c main_arg0) (V m c main_v5)) := by
  show (cfg0.win 2).cut (grid0.coords t) ((dats m 0 c).after 2 t) = _
  rw [after0_2]
  unfold out0_2
  rw [View.canon_unit_zero hz]
  simp only [View.ld_unit_zero (S := S512x4096) hz, View.ld_unit_zero (S := S4096x384) hz]
  obtain ⟨e0, e1, e2, e3, e4, e5⟩ := idx_facts t
  funext y
  show k0_pay1 (F := Ideal) (iblk m c 0 t) (iblk m c 1 t) y
    = rowValue (V m c main_arg0) (V m c main_v5) ((((cfg0.win 2).blk t).view.emb y) 0)
  refine block_value (iblk m c 0 t) (iblk m c 1 t) (V m c main_arg0) (V m c main_v5) y _ (fun n => ?_) (fun n k => ?_)
  · show V m c main_arg0 (((cfg0.win 0).blk t).view.emb (ix2 (y 0) n)) = V m c main_arg0 (ix2 ((((cfg0.win 2).blk t).view.emb y) 0) n)
    refine congrArg (V m c main_arg0) (funext fun a => Fin.ext ?_)
    match a with
    | ⟨0, _⟩ => show win0_0.index t (0 : Fin 2) * 512 + 1 * (y 0).val = win0_2.index t (0 : Fin 2) * 512 + 1 * (y 0).val; omega
    | ⟨1, _⟩ => show win0_0.index t (1 : Fin 2) * 4096 + 1 * n.val = n.val; omega
  · show V m c main_v5 (((cfg0.win 1).blk t).view.emb (ix2 n k)) = V m c main_v5 (ix2 n k)
    refine congrArg (V m c main_v5) (funext fun a => Fin.ext ?_)
    match a with
    | ⟨0, _⟩ => show win0_1.index t (0 : Fin 2) * 4096 + 1 * n.val = n.val; omega
    | ⟨1, _⟩ => show win0_1.index t (1 : Fin 2) * 384 + 1 * k.val = k.val; omega

/-- An index of the output is in point t's block iff each coordinate is in the block's range on its axis. -/
theorem mem_blk (t : Fin cfg0.N) (i : S8192x1.Idx) :
    i ∈ ((cfg0.win 2).blk t).view.set ↔ ∀ a : Fin 2, win0_2.index t a * S512x1.size a ≤ (i a).val
      ∧ (i a).val < win0_2.index t a * S512x1.size a + S512x1.size a := by
  show i ∈ ((View.whole main_v6).slice (win0_2.rect t)).set ↔ _
  rw [View.set_slice_whole, Rect.mem_set_unit]
  exact Iff.rfl

/-- Every output row is in the block of the point that handles its 512-row group. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- The output array after the region: the region's value of the arrays the region finds. -/
theorem final (c : Dev nD) : (dats m 0 c).arrAt 2 cfg0.N = regionValue (V m c main_arg0) (V m c main_v5) :=
  (dats m 0 c).arrAt_eq_of_cover 2 (regionValue (V m c main_arg0) (V m c main_v5)) (fun t _ => flushed_eq m c t) cover

end Cert.Fm.Blocks
-- ==== Proof.FmTail.lean ====
/-
  The kernel program's run, with its result named.

  Around the region the program (i) builds the padded matrix from V and w before it and (ii) adds the bias b,
  broadcast over the 8192 rows, to the region's output after it. With the region's output array known as one function
  of the arrays it reads, the program's result is
    row r ↦ (Σ_k (Σ_n x[r,n]·V[n,k])² + Σ_n x[r,n]·w[n]) + b[0],
  the sum-of-squares form of the layer: the padded matrix's factor columns are V's columns and its column 256 is w.
-/
import proofs.«140346_j1099511628175_1_alg».proof.Proof.Gen.KernelIdeal.Frame
import proofs.«140346_j1099511628175_1_alg».proof.Proof.FmBlocks
import proofs.«140346_j1099511628175_1_alg».proof.Proof.FmAlgebra
import Idealize.ShloMosaic.Lib.Pipeline.Value
import Idealize.ShloMosaic.Lib.StableHlo.Run

set_option maxRecDepth 16384

noncomputable section

namespace Cert.Fm.Tail

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen
open Cert.Fm.Pad (vpad vpad_factor vpad_linear colV colW)
open Cert.Fm.Blocks (regionValue rowValue)

/-- The program's result as a function of its four argument arrays: the region's value over x and the padded matrix,
    plus the bias broadcast over the rows. -/
def kernelValue (x : FVec Ideal S8192x4096 .f32) (Vv : FVec Ideal S4096x256 .f32) (wv : FVec Ideal S4096 .f32)
    (bv : FVec Ideal S1 .f32) : FVec Ideal S8192x1 .f32 :=
  addf (regionValue x (vpad Vv wv))
    (broadcastInDim S8192x1 ![0, 1] bcast_S1x1_S8192x1_0_1 (broadcastInDim S1x1 ![1] bcast_S1_S1x1_1 bv))

/-- The bias broadcast over the rows reads b[0] everywhere. -/
theorem bias_apply (bv : FVec Ideal S1 .f32) (i : S8192x1.Idx) :
    broadcastInDim S8192x1 ![0, 1] bcast_S1x1_S8192x1_0_1 (broadcastInDim S1x1 ![1] bcast_S1_S1x1_1 bv) i = bv (ix1 (0 : Fin 1)) := by
  refine (broadcastInDim_apply _ bcast_S1x1_S8192x1_0_1 _ i (ix2 (0 : Fin 1) (0 : Fin 1)) (fun a => ?_)).trans ?_
  · match a with
    | ⟨0, _⟩ => show 0 = if (1 : Nat) = 1 then 0 else (i 0).val; rw [if_pos rfl]
    | ⟨1, _⟩ => show 0 = if (1 : Nat) = 1 then 0 else (i 1).val; rw [if_pos rfl]
  · refine broadcastInDim_apply _ bcast_S1_S1x1_1 bv _ (ix1 (0 : Fin 1)) (fun a => ?_)
    match a with
    | ⟨0, _⟩ => show 0 = if (1 : Nat) = 1 then 0 else _; rw [if_pos rfl]

/-- The program's result is the sum-of-squares form of the layer. -/
theorem kernelValue_eq_squares (x : FVec Ideal S8192x4096 .f32) (Vv : FVec Ideal S4096x256 .f32) (wv : FVec Ideal S4096 .f32)
    (bv : FVec Ideal S1 .f32) : kernelValue x Vv wv bv = Cert.Fm.squares x Vv wv bv := by
  funext i
  unfold kernelValue
  rw [addf_apply, bias_apply]
  unfold regionValue rowValue Cert.Fm.squares Cert.Fm.proj Cert.Fm.lin
  simp only [vpad_factor, vpad_linear]

variable (m : (ℓ : Loc nD τ sig) → Buf (Elt Ideal) ℓ) (ρ : Dev nD → PrngReg)

/-- The second window's array, as the region finds it, is the padded matrix of the arguments V and w. -/
theorem V_main_v5 (c : Dev nD) : (V m c main_v5 : S4096x384.Idx → EReal)
    = vpad (m ((c : Thread nD τ).loc main_arg1)) (m ((c : Thread nD τ).loc main_arg2)) := by
  show StableHlo.after hostOps0 (fun b => m (c, b)) (Proc.devRef .tc main_v5) = _
  after_results
  rfl

/-- The program's result buffer after the lines that follow the region. -/
theorem result (c : Dev nD) : Pipeline.afterTail₀ cfgs (dats m) 0 (V0 m) [hostOps1] c main_v9
    = kernelValue (m ((c : Thread nD τ).loc main_arg0)) (m ((c : Thread nD τ).loc main_arg1))
        (m ((c : Thread nD τ).loc main_arg2)) (m ((c : Thread nD τ).loc main_arg3)) := by
  have e6 : Pipeline.withArrays (cfgs 0).spec c (V0 m c) (fun w => (dats m 0 c).arrAt w (cfgs 0).N) (Proc.devRef .tc main_v6)
      = regionValue (m ((c : Thread nD τ).loc main_arg0)) (vpad (m ((c : Thread nD τ).loc main_arg1)) (m ((c : Thread nD τ).loc main_arg2))) := by
    refine (Pipeline.withArrays_arr spec0 launch0.win.arr_inj c _ _ 2).trans ?_
    rw [Cert.Fm.Blocks.final m c, V_main_v5 m c, V_main_arg0 m c]
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  unfold Pipeline.afterTail₀
  show StableHlo.after hostOps1 _ (Proc.devRef .tc main_v9) = _
  after_results
  rw [e6, e3]
  rfl

/-- Every weakly fair execution of the kernel program terminates with its result at the sum-of-squares form of the
    layer over the arguments, and the arguments unchanged. -/
theorem run : θ_run defs (onTc (τ := τ) (main (F := Ideal))) ⟨m, fun _ => 0, ρ⟩ fun r => ∀ c : Dev nD,
      r.2.mem ((c.tc : Thread nD τ).loc main_v9)
        = Cert.Fm.squares (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(((h c).2 main_v9 (Pipeline.mem_restRefs_of main_v9 (by decide) (by decide))).trans (result m c)).trans
        (kernelValue_eq_squares _ _ _ _),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Fm.Tail
-- ==== Proof.lean ====
/-
  A factorization-machine layer: the pairwise interaction computed as a sum of squared projections against the
  reference's Gram-matrix form.

  For x : [8192, 4096], factors V : [4096, 256], linear weights w : [4096] and bias b : [1], row r of the result is
    reference:  (Σ_n x[r,n]·w[n] + b[0]) + Σ_j (Σ_n x[r,n]·(V·Vᵀ)[n,j])·x[r,j],
    kernel:     (Σ_k (Σ_n x[r,n]·V[n,k])² + Σ_n x[r,n]·w[n]) + b[0].
  The kernel packs w as column 256 of a zero-padded copy of V, multiplies each 512-row block of x by that [4096, 384]
  matrix once, sums the squares of the first 256 columns of the product along the row and adds column 256; the bias is
  added after the region. At the ideal instance the changes of float format are identities, the matrix products and the
  row sums are exact finite sums, and the two forms are the same real number: expanding both gives the triple sum of
  x[r,n]·V[n,k]·x[r,j]·V[j,k], summed in two orders. The expansion distributes products over sums, which is not valid at
  ±∞ on the extended reals, so this is where the precondition (every input entry finite) is used.

  The modules: FmAlgebra (the two forms and the law between them), FmFinite (the precondition gives real entries),
  FmReference (the reference's run is the Gram form), LibScatterSet and FmPad (the padded matrix read at an entry),
  LibDot and FmPayload (the body's stored value at an entry), FmBlocks (the region's output array from the sixteen
  row blocks), FmTail (the kernel program's run with the bias added). The ideal pass rewrote nothing, so `preserves` is
  trivial; the three frames are the generated ones (the reference's is its run with the result dropped).
-/
import proofs.«140346_j1099511628175_1_alg».proof.Defs
import proofs.«140346_j1099511628175_1_alg».proof.Proof.Gen.Kernel
import proofs.«140346_j1099511628175_1_alg».proof.Proof.Gen.Kernel.Skeleton
import proofs.«140346_j1099511628175_1_alg».proof.Proof.Gen.Kernel.Launch
import proofs.«140346_j1099511628175_1_alg».proof.Proof.Gen.Kernel.Points
import proofs.«140346_j1099511628175_1_alg».proof.Proof.Gen.Kernel.Frame
import proofs.«140346_j1099511628175_1_alg».proof.Proof.Gen.KernelIdeal
import proofs.«140346_j1099511628175_1_alg».proof.Proof.Gen.KernelIdeal.Skeleton
import proofs.«140346_j1099511628175_1_alg».proof.Proof.Gen.KernelIdeal.Launch
import proofs.«140346_j1099511628175_1_alg».proof.Proof.Gen.KernelIdeal.Points
import proofs.«140346_j1099511628175_1_alg».proof.Proof.Gen.KernelIdeal.Frame
import proofs.«140346_j1099511628175_1_alg».proof.Proof.Gen.ReferenceIdeal
import proofs.«140346_j1099511628175_1_alg».proof.Proof.Gen.ReferenceIdeal.Run
import proofs.«140346_j1099511628175_1_alg».proof.Proof.Gen.ReferenceIdeal.Read
import proofs.«140346_j1099511628175_1_alg».proof.Proof.Gen.Pre_finite_inputs
import proofs.«140346_j1099511628175_1_alg».proof.Proof.FmAlgebra
import proofs.«140346_j1099511628175_1_alg».proof.Proof.FmFinite
import proofs.«140346_j1099511628175_1_alg».proof.Proof.FmReference
import proofs.«140346_j1099511628175_1_alg».proof.Proof.FmTail
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the sum-of-squares form of the layer over the (agreeing) arguments: the kernel's run states
    it directly; the reference's run ends at the Gram form, which on real entries is the same function. -/
theorem algebraic : Cert.algebraic_KernelIdeal_ReferenceIdeal := by
  intro m ρ m' ρ' hpre hagree
  refine ⟨_, Cert.Fm.Tail.run m ρ, ?_⟩
  refine (θ_run Cert.ReferenceIdeal.defs _ _).mono (fun _ h c =>
    ⟨((h c).1.trans (Cert.ReferenceIdeal.Read.val_main_v11_eq _ _ _ _)).trans ?_, (h c).2⟩)
    (Cert.ReferenceIdeal.Value.run (F := Ideal) m' ρ')
  rw [Cert.Fm.Reference.reference_eq_gram, (hagree c).1, (hagree c).2.1, (hagree c).2.2.1, (hagree c).2.2.2]
  obtain ⟨hx, hV, hw, hb⟩ := Cert.Fm.Finite.reals_of_pre _ _ _ _ (hpre c)
  exact Cert.Fm.gram_eq_squares _ _ _ _ hx hV hw hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
